-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S100000x1 : Shape := ⟨2, ![100000, 1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : FVec F S100000x64 .f32) (main_arg1 : FVec F S64x64 .f32) (main_arg2 : FVec F S100000x1 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S100000x1 : Shape := ⟨2, ![100000, 1]⟩
abbrev S1600000 : Shape := ⟨1, ![1600000]⟩
abbrev S4000x64 : Shape := ⟨2, ![4000, 64]⟩
abbrev S4000x1 : Shape := ⟨2, ![4000, 1]⟩
abbrev S_ : Shape := ⟨0, ![]⟩
abbrev S1600000x1 : Shape := ⟨2, ![1600000, 1]⟩
abbrev S1600000x64 : Shape := ⟨2, ![1600000, 64]⟩

abbrev nBuf : Space → Nat
  | .hbm => 22
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S64x64, .bf16⟩
  | .hbm, ⟨6, _⟩ => ⟨S100000x64, .bf16⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .bf16⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x64, .bf16⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S4000x64, .f32⟩
  | .local _ .vmem, ⟨12, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4000x1_S4000x1_0_0 : ∀ a, (![0, 0] : Fin 2 → Nat) a + S4000x1.size a ≤ S4000x1.size a
  h_S4000x1 : 0 < S4000x1.numel
  broadcasts_S4000x1_S4000x64 : S4000x1.Broadcasts S4000x64
  packedbf16_S4000x64_S4000x64_0_0 : (Rect.unit (s := S4000x64) ![0, 0] S4000x64.size inb_S4000x64_S4000x64_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S4000x64_S4000x64 : S4000x64.ShapeCasts S4000x64
  dot_S4000x64_S64x64_S4000x64_1_0_0_1_n_n_wf : DotDims.WF S4000x64 S64x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)

variable [Facts₀]

def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S100000x1 : Shape := ⟨2, ![100000, 1]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 23
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S100000x64, .f32⟩
  | .hbm, ⟨6, _⟩ => ⟨S100000x64, .f32⟩
  | .hbm, ⟨7, _⟩ => ⟨S100000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .hbm, ⟨22, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The graph-convolution layer as two functions of whole arrays, index by index, on the extended reals.

  `linScale h w n` is the linear layer with each row scaled by its node's norm: entry (r, j) is
  (Σ_k h[r, k] · w[k, j]) · n[r, 0].  `rowScale a n` scales row r of an aggregated array by n[r, 0].
  Between the two the program gathers rows by source node and adds them into destination rows; that part is
  the same host computation on both sides of the claim and is never opened here.
-/
import Idealize.ShloMosaic.PureOps.Ideal
import Idealize.ShloMosaic.Lib.ValueIdx

noncomputable section

namespace Cert.Gcn

open Idealize.ShloMosaic Idealize.ShloMosaic.ValueIdx

/-- Node features: 100000 nodes, 64 features. -/
abbrev Nodes : Shape := ⟨2, ![100000, 64]⟩
/-- The weight matrix. -/
abbrev Wt : Shape := ⟨2, ![64, 64]⟩
/-- One norm per node, kept as a column. -/
abbrev Col : Shape := ⟨2, ![100000, 1]⟩

/-- Row r, feature j of the scaled linear layer: the inner product of row r of `h` with column j of `w`, times the
    norm of node r. -/
def linScale (h : Nodes.Idx → EReal) (w : Wt.Idx → EReal) (n : Col.Idx → EReal) : Nodes.Idx → EReal :=
  fun i => (∑ k : Fin 64, h (ix2 (⟨(i 0).val, (i 0).isLt⟩ : Fin 100000) k) * w (ix2 k (⟨(i 1).val, (i 1).isLt⟩ : Fin 64)))
    * n (ix2 (⟨(i 0).val, (i 0).isLt⟩ : Fin 100000) (0 : Fin 1))

/-- Row r of `a` scaled by the norm of node r. -/
def rowScale (a : Nodes.Idx → EReal) (n : Col.Idx → EReal) : Nodes.Idx → EReal :=
  fun i => a i * n (ix2 (⟨(i 0).val, (i 0).isLt⟩ : Fin 100000) (0 : Fin 1))

end Cert.Gcn

end
-- ==== Proof.Aggregate.lean ====
/-
  The edge stage of the layer, as one function: gather the rows of a node array by source node and add them into their
  destination rows.

  The source indices are first normalised the way array indexing does it (a negative index counts from the end: 100000 is
  added to it), then row e of the gathered array is the row of the node array the normalised source of edge e names, and
  the gathered rows are added into a zero array at the rows the destination indices name.  Both programs of the claim
  apply exactly this computation to their scaled linear layer, so it is carried as one function and never opened.
-/
import proofs.«138011_j40767829573731_2_alg».proof.KernelIdeal
import proofs.«138011_j40767829573731_2_alg».proof.Proof.Gen.KernelIdeal
import Idealize.ShloMosaic.PureOps.Ideal

noncomputable section

namespace Cert.KernelIdeal.Agg

open Idealize.ShloMosaic
open Cert.KernelIdeal Cert.KernelIdeal.Gen

/-- Source indices normalised: a negative index has the number of nodes added to it. -/
def normSrc (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- Rows of `hn` gathered by (normalised) source node, added into the rows the destinations name, from zero. -/
def aggregate (hn : S100000x64.Idx → EReal) (src dst : IVec S1600000 32) : S100000x64.Idx → EReal :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 hn
      (broadcastInDim S1600000x1 ![0] bcast_S1600000_S1600000x1_0 (normSrc src)))

end Cert.KernelIdeal.Agg

end
-- ==== Proof.KernelRun.lean ====
/-
  The idealized kernel's whole run, with its result named.

  The program is two pipelined regions among host operations: the weight is re-formatted, region 0 computes the scaled
  linear layer block by block, the host gathers rows by source node and adds them into their destination rows, and region 1
  scales the aggregated rows block by block.  The buffer contents at the four segment boundaries form a fold from the launch
  memory (`Gen.W1` … `Gen.W4`), and the launch over the segments ends with EVERY unscoped buffer at the last fold `Gen.W4`.
  Read at the result buffer as well as at the five arguments, that gives: every weakly fair execution terminates, nothing
  faults, the result array ends at `Gen.W4` of its buffer, and the arguments end as launched.
-/
import proofs.«138011_j40767829573731_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of @main terminates, nothing faulting; the result array ends at the last boundary's
    contents of its buffer (region 1's write-backs folded), and the five arguments end as launched. -/
theorem run_result : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Whole

end
-- ==== Proof.LibKeepdims.lean ====
/-
  Column ("keepdims") layout operations read at an index.

  A sum over the last axis kept as a unit axis produces a column `[a, 1]`; kernels then re-lay that column: a vector
  `[a]` cast to the column `[a, 1]`, and the column broadcast along its unit axis to `[a, b]`. Each lemma reads one of
  these operations at an index written by coordinates, in the style of the library's leading-unit-axis lemmas
  (the transposed column `[a, 1] → [1, a]` and the row broadcast `[1, b] → [a, b]` are the library's
  `transpose_ix2_apply` and `broadcastTo_1b_ab_apply`). General in the extents.
-/
import Idealize.ShloMosaic.Lib.Pipeline.Value
import Idealize.ShloMosaic.Lib.ValueIdx
import Idealize.ShloMosaic.Lib.ValueLayout

namespace Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the unit axis is
    repeated along the columns. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LinearRegion.lean ====
/-
  Region 0, the linear layer with the source-norm scaling, as one function of whole arrays.

  The grid has 25 points; point t works on rows 4000·t … 4000·t + 3999 of the features and of the norm column, and on the
  whole weight matrix.  On the extended reals a change of float format is the identity and a matrix product into a zero
  accumulator is the plain sum of products, so entry (p, q) of the block the body stores is
  (Σ_k h[4000·t + p, k] · w[k, q]) · n[4000·t + p, 0]: block t of `linScale h w n`.  The 25 row blocks tile the output array.
-/
import proofs.«138011_j40767829573731_2_alg».proof.Proof.Gen.KernelIdeal.Frame
import proofs.«138011_j40767829573731_2_alg».proof.Proof.Spec
import proofs.«138011_j40767829573731_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.LinearRegion

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem zero_offsets : (![0, 0] : Fin 2 → Nat) = fun _ => 0 := funext fun a => by fin_cases a <;> rfl

/-- The body's matrix product: rows of the block against columns of the weight, contracted over the 64 input features. -/
abbrev D : DotDims S4000x64 S64x64 S4000x64 := dot_S4000x64_S64x64_S4000x64_1_0_0_1_n_n

theorem lhs_row (i : S4000x64.Idx) (q : D.contr.Idx) : (D.lhsIdx i q 0).val = (i 0).val := by
  unfold DotDims.lhsIdx
  rw [dif_neg (show ¬(0 : Fin S4000x64.rank) ∈ D.lhsBatch by decide), dif_pos (show (0 : Fin S4000x64.rank) ∈ D.lhsNonContracting by decide)]
  rfl
theorem lhs_contr (i : S4000x64.Idx) (q : D.contr.Idx) : (D.lhsIdx i q 1).val = (q ⟨0, by decide⟩).val :=
  D.lhsIdx_val_of_single rfl i q
theorem rhs_contr (i : S4000x64.Idx) (q : D.contr.Idx) : (D.rhsIdx i q 0).val = (q ⟨0, by decide⟩).val :=
  D.rhsIdx_val_of_single rfl i q
theorem rhs_col (i : S4000x64.Idx) (q : D.contr.Idx) : (D.rhsIdx i q 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- The product into the zero accumulator, at entry (p, q): the sum over k of x[p, k] · w[k, q]. -/
theorem matmul_at (x : FVec Ideal S4000x64 .bf16) (w : FVec Ideal S64x64 .bf16) (p : Fin 4000) (q : Fin 64) :
    matmul (F := Ideal) D none x w (constant S4000x64 .f32 0x00000000#32) (ix2 p q) = ∑ k : Fin 64, x (ix2 p k) * w (ix2 k q) := by
  simp only [matmul]
  rw [Ideal.matmul_constant_zero_apply, ← Equiv.sum_comp (ValueIdx.contrEquiv1 D 64 rfl rfl).symm]
  refine Finset.sum_congr rfl fun k _ => ?_
  have hk := ValueIdx.contrEquiv1_symm_val D 64 rfl rfl k
  have el : D.lhsIdx (ix2 p q) ((ValueIdx.contrEquiv1 D 64 rfl rfl).symm k) = ix2 p k := funext fun a => Fin.ext (by
    match a with
    | ⟨0, _⟩ => exact lhs_row _ _
    | ⟨1, _⟩ => exact (lhs_contr _ _).trans hk)
  have er : D.rhsIdx (ix2 p q) ((ValueIdx.contrEquiv1 D 64 rfl rfl).symm k) = ix2 k q := funext fun a => Fin.ext (by
    match a with
    | ⟨0, _⟩ => exact (rhs_contr _ _).trans hk
    | ⟨1, _⟩ => exact rhs_col _ _)
  rw [el, er]

/-- The body's stored value at entry (p, q) of the block. -/
theorem pay_apply (x0 : FVec Ideal S4000x64 .f32) (x1 : FVec Ideal S64x64 .bf16) (x2 : FVec Ideal S4000x1 .f32) (p : Fin 4000) (q : Fin 64) :
    k0_pay1 (F := Ideal) x0 x1 x2 (ix2 p q) = (∑ k : Fin 64, x0 (ix2 p k) * x1 (ix2 k q)) * x2 (ix2 p (0 : Fin 1)) := by
  unfold k0_pay1
  rw [truncf_apply, mulf_apply, broadcastTo_a1_ab_apply, shapeCast_self]
  refine congrArg (· * x2 (ix2 p (0 : Fin 1))) ?_
  exact matmul_at _ x1 p q

/-- The same at any index of the block, its coordinates re-read as a row of the feature block, a column of the weight and
    a row of the norm block. -/
theorem pay_at (x0 : FVec Ideal S4000x64 .f32) (x1 : FVec Ideal S64x64 .bf16) (x2 : FVec Ideal S4000x1 .f32) (y : S4000x64.Idx) :
    k0_pay1 (F := Ideal) x0 x1 x2 y
      = (∑ k : Fin 64, x0 (ix2 (⟨(y 0).val, (y 0).isLt⟩ : Fin 4000) k) * x1 (ix2 k (⟨(y 1).val, (y 1).isLt⟩ : Fin 64)))
        * x2 (ix2 (⟨(y 0).val, (y 0).isLt⟩ : Fin 4000) (0 : Fin 1)) := by
  obtain ⟨p, q, rfl⟩ : ∃ (p : Fin 4000) (q : Fin 64), y = ix2 p q := ⟨y 0, y 1, eq_ix2 y⟩
  exact pay_apply x0 x1 x2 p q

/-- The printed index maps over the grid: the feature, norm and output blocks move down the rows with the point, the
    weight's one block never moves, and no block moves along the second axis. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `linScale` of the arrays the region found. -/
theorem flushed_eq (c : Dev nD) (t : Fin cfg0.N) :
    (dat0 V c).flushed 3 t
      = ((cfg0.win 3).blk t).view.read (Elt Ideal) (linScale (V c main_arg0) (V c main_v0) (V c main_arg2)) := by
  show (cfg0.win 3).cut (grid0.coords t) ((dat0 V c).after 3 t) = _
  rw [after0_3]
  unfold out0_3
  rw [View.canon_unit_zero zero_offsets]
  simp only [View.ld_unit_zero (S := S4000x64) zero_offsets, View.ld_unit_zero (S := S64x64) zero_offsets,
    View.ld_unit_zero (S := S4000x1) zero_offsets]
  obtain ⟨e0, e1, e2, e3, e4, e5, e6, e7⟩ := index_facts t
  funext j
  refine (pay_at _ _ _ j).trans ?_
  have h0 : ∀ k : Fin 64, ((cfg0.win 0).blk t).view.emb (ix2 (⟨(j 0).val, (j 0).isLt⟩ : Fin 4000) k)
      = ix2 (⟨((((cfg0.win 3).blk t).view.emb j) 0).val, ((((cfg0.win 3).blk t).view.emb j) 0).isLt⟩ : Fin 100000) k := by
    intro k; funext a; apply Fin.ext
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 64 + 1 * k.val = k.val; omega
  have h1 : ∀ k : Fin 64, ((cfg0.win 1).blk t).view.emb (ix2 k (⟨(j 1).val, (j 1).isLt⟩ : Fin 64))
      = ix2 k (⟨((((cfg0.win 3).blk t).view.emb j) 1).val, ((((cfg0.win 3).blk t).view.emb j) 1).isLt⟩ : Fin 64) := by
    intro k; funext a; apply Fin.ext
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  have h2 : ((cfg0.win 2).blk t).view.emb (ix2 (⟨(j 0).val, (j 0).isLt⟩ : Fin 4000) (0 : Fin 1))
      = ix2 (⟨((((cfg0.win 3).blk t).view.emb j) 0).val, ((((cfg0.win 3).blk t).view.emb j) 0).isLt⟩ : Fin 100000) (0 : Fin 1) := by
    funext a; apply Fin.ext
    match a with
    | ⟨0, _⟩ => show win0_2.index t (0 : Fin 2) * 4000 + 1 * (j 0).val = win0_3.index t (0 : Fin 2) * 4000 + 1 * (j 0).val; omega
    | ⟨1, _⟩ => show win0_2.index t (1 : Fin 2) * 1 + 1 * 0 = 0; omega
  have key : ∀ (H : S100000x64.Idx → EReal) (W : S64x64.Idx → EReal) (N : S100000x1.Idx → EReal),
      (∑ k : Fin 64, H (((cfg0.win 0).blk t).view.emb (ix2 (⟨(j 0).val, (j 0).isLt⟩ : Fin 4000) k))
          * W (((cfg0.win 1).blk t).view.emb (ix2 k (⟨(j 1).val, (j 1).isLt⟩ : Fin 64))))
        * N (((cfg0.win 2).blk t).view.emb (ix2 (⟨(j 0).val, (j 0).isLt⟩ : Fin 4000) (0 : Fin 1)))
      = linScale H W N (((cfg0.win 3).blk t).view.emb j) := by
    intro H W N
    rw [h2]
    simp only [h0, h1]
    rfl
  exact key (V c main_arg0) (V c main_v0) (V c main_arg2)

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v1).slice (win0_3.rect t)).set ↔ _
  rw [View.set_slice_whole, Rect.mem_set_unit]
  exact Iff.rfl

/-- Row r lies in the block of point r / 4000: the 25 row blocks tile the array. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e6, e7⟩ := index_facts t
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 64 ≤ (i 1).val ∧ (i 1).val < win0_3.index t (1 : Fin 2) * 64 + 64
    omega

/-- After the region the output array is `linScale` of the features, the re-formatted weight and the norm column the
    region found. -/
theorem final (c : Dev nD) : (dat0 V c).arrAt 3 cfg0.N = linScale (V c main_arg0) (V c main_v0) (V c main_arg2) :=
  (dat0 V c).arrAt_eq_of_cover 3 (linScale (V c main_arg0) (V c main_v0) (V c main_arg2)) (fun t _ => flushed_eq V c t) covered

end Cert.KernelIdeal.LinearRegion

end
-- ==== Proof.ScaleRegion.lean ====
/-
  Region 1, the row-scaling kernel, as one function of whole arrays.

  The grid has 25 points; point t works on rows 4000·t … 4000·t + 3999.  Its body multiplies the block of the aggregated
  array by the block of the norm column repeated along the features, so entry (p, q) of the block it writes back is
  a[4000·t + p, q] · n[4000·t + p, 0]: block t of `rowScale a n`.  The 25 row blocks tile the array, so after the region the
  output array is `rowScale a n` of the two arrays the region found.
-/
import proofs.«138011_j40767829573731_2_alg».proof.Proof.Gen.KernelIdeal.Frame
import proofs.«138011_j40767829573731_2_alg».proof.Proof.Spec
import proofs.«138011_j40767829573731_2_alg».proof.Proof.LibKeepdims
import Idealize.ShloMosaic.Lib.Pipeline.Value
import Idealize.ShloMosaic.Lib.ValueIdx

set_option maxRecDepth 16384

noncomputable section

namespace Cert.KernelIdeal.ScaleRegion

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry (p, q) of the block: the aggregated entry times the row's norm. -/
theorem pay_apply (x0 : FVec Ideal S4000x64 .f32) (x1 : FVec Ideal S4000x1 .f32) (p : Fin 4000) (q : Fin 64) :
    k1_pay1 (F := Ideal) x0 x1 (ix2 p q) = x0 (ix2 p q) * x1 (ix2 p (0 : Fin 1)) := by
  unfold k1_pay1
  rw [mulf_apply, shapeCast_self, broadcastTo_a1_ab_apply]

/-- The same at any index of the block, its row coordinate re-read as a row of the norm block. -/
theorem pay_at (x0 : FVec Ideal S4000x64 .f32) (x1 : FVec Ideal S4000x1 .f32) (y : S4000x64.Idx) :
    k1_pay1 (F := Ideal) x0 x1 y = x0 y * x1 (ix2 (⟨(y 0).val, (y 0).isLt⟩ : Fin 4000) (0 : Fin 1)) := by
  obtain ⟨p, q, rfl⟩ : ∃ (p : Fin 4000) (q : Fin 64), y = ix2 p q := ⟨y 0, y 1, eq_ix2 y⟩
  exact pay_apply x0 x1 p q

/-- The printed index maps over the grid: every window's block moves down the rows with the point, and none moves along
    the second axis. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `rowScale` of the arrays the region found. -/
theorem flushed_eq (c : Dev nD) (t : Fin cfg1.N) :
    (dat1 V c).flushed 2 t = ((cfg1.win 2).blk t).view.read (Elt Ideal) (rowScale (V c main_v12) (V c main_arg2)) := by
  show (cfg1.win 2).cut (grid1.coords t) ((dat1 V c).after 2 t) = _
  rw [after1_2]
  unfold out1_2
  rw [View.canon_unit_zero zero_offsets]
  simp only [View.ld_unit_zero (S := S4000x64) zero_offsets, View.ld_unit_zero (S := S4000x1) zero_offsets]
  obtain ⟨e0, e1, e2, e3, e4, e5⟩ := index_facts t
  funext j
  refine (pay_at _ _ j).trans ?_
  have h0 : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (⟨(j 0).val, (j 0).isLt⟩ : Fin 4000) (0 : Fin 1))
      = ix2 (⟨((((cfg1.win 2).blk t).view.emb j) 0).val, ((((cfg1.win 2).blk t).view.emb j) 0).isLt⟩ : Fin 100000) (0 : Fin 1) := by
    funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 1 + 1 * 0 = 0; omega
  have key : ∀ (A : S100000x64.Idx → EReal) (N : S100000x1.Idx → EReal),
      A (((cfg1.win 0).blk t).view.emb j)
        * N (((cfg1.win 1).blk t).view.emb (ix2 (⟨(j 0).val, (j 0).isLt⟩ : Fin 4000) (0 : Fin 1)))
      = rowScale A N (((cfg1.win 2).blk t).view.emb j) := by
    intro A N
    rw [h0, h1]
    rfl
  exact key (V c main_v12) (V c main_arg2)

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S4000x64.size a ≤ (i a).val
      ∧ (i a).val < win1_2.index t a * S4000x64.size a + S4000x64.size a := by
  show i ∈ ((View.whole main_v13).slice (win1_2.rect t)).set ↔ _
  rw [View.set_slice_whole, Rect.mem_set_unit]
  exact Iff.rfl

/-- Row r lies in the block of point r / 4000: the 25 row blocks tile the array. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, e4, e5⟩ := index_facts t
  refine ⟨t, flush1_2 t, ?_⟩
  rw [mem_blk]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 64 ≤ (i 1).val ∧ (i 1).val < win1_2.index t (1 : Fin 2) * 64 + 64
    omega

/-- After the region the output array is `rowScale` of the aggregated array and the norm column the region found. -/
theorem final (c : Dev nD) : (dat1 V c).arrAt 2 cfg1.N = rowScale (V c main_v12) (V c main_arg2) :=
  (dat1 V c).arrAt_eq_of_cover 2 (rowScale (V c main_v12) (V c main_arg2)) (fun t _ => flushed_eq V c t) covered

end Cert.KernelIdeal.ScaleRegion

end
-- ==== Proof.Boundaries.lean ====
/-
  The idealized kernel's result array as one function of its arguments.

  The buffer contents at the segment boundaries are followed from the launch memory to the return:
  before region 0 the host re-formats the weight (the identity on the extended reals) and touches no argument;
  region 0 leaves its output array at `linScale` of the features, that weight and the norm column (LinearRegion);
  the host stretch between the regions touches no argument and no output of region 0, and leaves the aggregated array at
  `aggregate` of region 0's output and the two index arrays — the widening of the gathered rows is again the identity;
  region 1 leaves the result array at `rowScale` of the aggregated array and the norm column (ScaleRegion).
-/
import proofs.«138011_j40767829573731_2_alg».proof.Proof.Gen.KernelIdeal.Frame
import proofs.«138011_j40767829573731_2_alg».proof.Proof.Spec
import proofs.«138011_j40767829573731_2_alg».proof.Proof.Aggregate
import proofs.«138011_j40767829573731_2_alg».proof.Proof.LinearRegion
import proofs.«138011_j40767829573731_2_alg».proof.Proof.ScaleRegion
import Idealize.ShloMosaic.Lib.StableHlo.Run
import Idealize.ShloMosaic.Lib.ValueIdx
import Idealize.ShloMosaic.PureOps.Ideal

set_option maxRecDepth 16384

noncomputable section

namespace Cert.KernelIdeal.Boundaries

open Idealize.ShloMosaic Idealize.ShloMosaic.TcCoe Idealize.SL.Sem Idealize.ShloMosaic.StableHlo
open Idealize.ShloMosaic.ValueIdx
open Cert.KernelIdeal Cert.KernelIdeal.Gen Cert.Gcn Cert.KernelIdeal.Agg

variable (m : (ℓ : Loc nD τ sig) → Buf (Elt Ideal) ℓ) (ρ : Dev nD → PrngReg)

/-! ## Before region 0 -/

theorem entry0_feat (c : Dev nD) : V1 m ρ c main_arg0 = m ((c : Thread nD τ).loc main_arg0) := by
  show StableHlo.after hostOps0 (W0 m ρ c) (Proc.devRef .tc main_arg0) = _
  after_results <;> rfl
theorem entry0_norm (c : Dev nD) : V1 m ρ c main_arg2 = m ((c : Thread nD τ).loc main_arg2) := by
  show StableHlo.after hostOps0 (W0 m ρ c) (Proc.devRef .tc main_arg2) = _
  after_results <;> rfl
/-- The re-formatted weight is the weight: a change of float format is the identity on the extended reals. -/
theorem entry0_weight (c : Dev nD) :
    (V1 m ρ c main_v0 : S64x64.Idx → EReal) = m ((c : Thread nD τ).loc main_arg1) := by
  show StableHlo.after hostOps0 (W0 m ρ c) (Proc.devRef .tc main_v0) = _
  after_results <;> rfl

/-! ## After region 0 -/

/-- Region 0's output array: the scaled linear layer of the launch arrays. -/
theorem exit0_out (c : Dev nD) :
    W2 m ρ c (Proc.devRef .tc main_v1)
      = linScale (m ((c : Thread nD τ).loc main_arg0)) (m ((c : Thread nD τ).loc main_arg1)) (m ((c : Thread nD τ).loc main_arg2)) := by
  refine (W2_arr m ρ c 3).trans ((LinearRegion.final (V1 m ρ) c).trans ?_)
  rw [entry0_feat, entry0_norm, entry0_weight]
theorem exit0_src (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results <;> rfl
theorem exit0_dst (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl
theorem exit0_norm (c : Dev nD) : W2 m ρ c (Proc.devRef .tc main_arg2) = m ((c : Thread nD τ).loc main_arg2) :=
  ((W2_arr m ρ c 2).trans (((dat0 (V1 m ρ) c).arrAt_in 2 rfl _).trans (A_eq0 (V1 m ρ) c 2))).trans (entry0_norm m ρ c)

/-! ## Before region 1 -/

theorem entry1_norm (c : Dev nD) : V3 m ρ c main_arg2 = m ((c : Thread nD τ).loc main_arg2) := by
  refine Eq.trans ?_ (exit0_norm m ρ c)
  show StableHlo.after hostOps1 (W2 m ρ c) (Proc.devRef .tc main_arg2) = _
  after_results <;> rfl

/-- The aggregated array region 1 finds: the edge stage applied to what region 0 left, the widening of the gathered
    rows being the identity on the extended reals. -/
theorem entry1_agg (c : Dev nD) :
    (V3 m ρ c main_v12 : S100000x64.Idx → EReal)
      = aggregate (W2 m ρ c (Proc.devRef .tc main_v1)) (W2 m ρ c (Proc.devRef .tc main_arg3)) (W2 m ρ c (Proc.devRef .tc main_arg4)) := by
  show StableHlo.after hostOps1 (W2 m ρ c) (Proc.devRef .tc main_v12) = _
  after_results <;> rfl

/-! ## After region 1 -/

/-- The result array after the run, as one function of the launch arrays. -/
theorem result_eq (c : Dev nD) :
    W4 m ρ c (Proc.devRef .tc main_v13)
      = rowScale (aggregate (linScale (m ((c : Thread nD τ).loc main_arg0)) (m ((c : Thread nD τ).loc main_arg1)) (m ((c : Thread nD τ).loc main_arg2)))
          (m ((c : Thread nD τ).loc main_arg3)) (m ((c : Thread nD τ).loc main_arg4))) (m ((c : Thread nD τ).loc main_arg2)) := by
  refine (W4_arr m ρ c 2).trans ((ScaleRegion.final (V3 m ρ) c).trans ?_)
  rw [entry1_agg, entry1_norm, exit0_out, exit0_src, exit0_dst]

end Cert.KernelIdeal.Boundaries

end
-- ==== Proof.RefValue.lean ====
/-
  The reference's result is the same function of the arguments as the kernel's.

  The reference multiplies the features by the weight on the host, scales each row by its node's norm, applies the edge
  stage, and scales each row by the norm again.  On the extended reals the host's matrix product read at entry (r, j) is
  Σ_k h[r, k] · w[k, j], and a norm column repeated along the features read at (r, j) is n[r, 0]; so the array the edge stage
  is applied to is `linScale h w n`, the edge stage is `aggregate`, and the last product is `rowScale`.
-/
import proofs.«138011_j40767829573731_2_alg».proof.Proof.Gen.ReferenceIdeal.Run
import proofs.«138011_j40767829573731_2_alg».proof.Proof.Gen.ReferenceIdeal.Read
import proofs.«138011_j40767829573731_2_alg».proof.Proof.Spec
import proofs.«138011_j40767829573731_2_alg».proof.Proof.Aggregate
import Idealize.ShloMosaic.Lib.ValueIdx
import Idealize.ShloMosaic.PureOps.Ideal

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Gcn

/-- The host's product scaled by the repeated norm column is the scaled linear layer. -/
theorem lin_eq (x0 : (⟨S100000x64, .f32⟩ : BufTy).Contents (Elt Ideal)) (x1 : (⟨S64x64, .f32⟩ : BufTy).Contents (Elt Ideal))
    (x2 : (⟨S100000x1, .f32⟩ : BufTy).Contents (Elt Ideal)) :
    val_main_v2 (F := Ideal) x0 x1 x2 = linScale x0 x1 x2 := by
  funext i
  have el : ∀ k : Fin 64, lidx_main_v0 i k = ix2 (⟨(i 0).val, (i 0).isLt⟩ : Fin 100000) k := fun k =>
    funext fun a => by match a with | ⟨0, _⟩ => rfl | ⟨1, _⟩ => rfl
  have er : ∀ k : Fin 64, ridx_main_v0 i k = ix2 k (⟨(i 1).val, (i 1).isLt⟩ : Fin 64) := fun k =>
    funext fun a => by match a with | ⟨0, _⟩ => rfl | ⟨1, _⟩ => rfl
  have en : idx_main_v1 i = ix2 (⟨(i 0).val, (i 0).isLt⟩ : Fin 100000) (0 : Fin 1) :=
    funext fun a => by match a with | ⟨0, _⟩ => rfl | ⟨1, _⟩ => rfl
  rw [val_main_v2_apply, val_main_v0_apply, val_main_v1_apply]
  simp only [el, er, en, Ideal.mulf_def]
  rfl

/-- The reference's gather and scatter-add, with its index normalisation, is the edge stage. -/
theorem agg_eq (x0 : (⟨S100000x64, .f32⟩ : BufTy).Contents (Elt Ideal)) (x1 : (⟨S64x64, .f32⟩ : BufTy).Contents (Elt Ideal))
    (x2 : (⟨S100000x1, .f32⟩ : BufTy).Contents (Elt Ideal)) (x3 x4 : (⟨S1600000, .i32⟩ : BufTy).Contents (Elt Ideal)) :
    val_main_v12 (F := Ideal) x0 x1 x2 x3 x4 = Cert.KernelIdeal.Agg.aggregate (val_main_v2 (F := Ideal) x0 x1 x2) x3 x4 := rfl

/-- The reference's result, as the function of the arguments the kernel's result is. -/
theorem result_eq (x0 : (⟨S100000x64, .f32⟩ : BufTy).Contents (Elt Ideal)) (x1 : (⟨S64x64, .f32⟩ : BufTy).Contents (Elt Ideal))
    (x2 : (⟨S100000x1, .f32⟩ : BufTy).Contents (Elt Ideal)) (x3 x4 : (⟨S1600000, .i32⟩ : BufTy).Contents (Elt Ideal)) :
    val_main_v14 (F := Ideal) x0 x1 x2 x3 x4
      = rowScale (Cert.KernelIdeal.Agg.aggregate (linScale x0 x1 x2) x3 x4) x2 := by
  funext i
  have en : idx_main_v13 i = ix2 (⟨(i 0).val, (i 0).isLt⟩ : Fin 100000) (0 : Fin 1) :=
    funext fun a => by match a with | ⟨0, _⟩ => rfl | ⟨1, _⟩ => rfl
  rw [val_main_v14_apply, val_main_v13_apply, agg_eq, lin_eq, en]
  rfl

end Cert.ReferenceIdeal.RefValue

end
-- ==== Proof.lean ====
/-
  The graph-convolution kernel against its jnp reference, on the extended reals.

  Both programs compute, from node features h, a weight w, one norm per node n and the edges' source and destination
  indices: the linear layer h·w with row r scaled by n[r]; the rows of that array gathered by source node and added into
  their destination rows; and each aggregated row r scaled by n[r] again.  The kernel does the linear layer and the last
  scaling in two pipelined regions over 25 row blocks of 4000 rows and narrows the weight, its features and the scaled
  layer to a shorter float format on the way; the reference does everything on the host in one format.  On the extended
  reals a change of format is the identity, a matrix product into a zero accumulator and the host's product are the same
  sum of products, and the edge stage is literally the same host computation on both sides, so the two results are one
  function of the arguments: `rowScale (aggregate (linScale h w n) src dst) n`.  No algebraic law beyond reading each
  operation at an index is needed, and the precondition is never opened.

  The kernel's side: its whole run with the result read off the last segment boundary (KernelRun), the two regions' output
  arrays as whole-array functions (LinearRegion, ScaleRegion), and the boundaries followed from the launch memory
  (Boundaries).  The reference's side: its run read operation by operation (RefValue).  The word-level kernel enters only
  through its frame; the idealization rewrote nothing, so `preserves` is trivial.
-/
import proofs.«138011_j40767829573731_2_alg».proof.Defs
import proofs.«138011_j40767829573731_2_alg».proof.Proof.Gen.Kernel
import proofs.«138011_j40767829573731_2_alg».proof.Proof.Gen.Kernel.Skeleton
import proofs.«138011_j40767829573731_2_alg».proof.Proof.Gen.Kernel.Launch
import proofs.«138011_j40767829573731_2_alg».proof.Proof.Gen.Kernel.Points
import proofs.«138011_j40767829573731_2_alg».proof.Proof.Gen.Kernel.Frame
import proofs.«138011_j40767829573731_2_alg».proof.Proof.Gen.KernelIdeal
import proofs.«138011_j40767829573731_2_alg».proof.Proof.Gen.KernelIdeal.Skeleton
import proofs.«138011_j40767829573731_2_alg».proof.Proof.Gen.KernelIdeal.Launch
import proofs.«138011_j40767829573731_2_alg».proof.Proof.Gen.KernelIdeal.Points
import proofs.«138011_j40767829573731_2_alg».proof.Proof.Gen.KernelIdeal.Frame
import proofs.«138011_j40767829573731_2_alg».proof.Proof.Gen.ReferenceIdeal
import proofs.«138011_j40767829573731_2_alg».proof.Proof.Gen.Pre_finite_inputs
import proofs.«138011_j40767829573731_2_alg».proof.Proof.Gen.ReferenceIdeal.Run
import proofs.«138011_j40767829573731_2_alg».proof.Proof.Gen.ReferenceIdeal.Read
import proofs.«138011_j40767829573731_2_alg».proof.Proof.Spec
import proofs.«138011_j40767829573731_2_alg».proof.Proof.Aggregate
import proofs.«138011_j40767829573731_2_alg».proof.Proof.KernelRun
import proofs.«138011_j40767829573731_2_alg».proof.Proof.Boundaries
import proofs.«138011_j40767829573731_2_alg».proof.Proof.RefValue
import Idealize.ShloMosaic.Adequacy
import Idealize.ShloMosaic.Init

noncomputable section

namespace Cert.Proof

open Idealize.ShloMosaic Idealize.ShloMosaic.TcCoe Idealize.SL.Sem
open Cert.Gcn Cert.KernelIdeal.Agg

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at
    `rowScale (aggregate (linScale h w n) src dst) n` of the arguments. -/
theorem algebraic : Cert.algebraic_KernelIdeal_ReferenceIdeal := by
  intro m ρ m' ρ' _ hagree
  refine ⟨fun c => rowScale (aggregate
      (linScale (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Boundaries.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
